-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x128x4096 .f32) (main_arg1 : IVec S11008x4096 32) (main_arg2 : FVec F S11008x1 .f32) (main_arg3 : FVec F S11008 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S512x4096 : Shape := ⟨2, ![512, 4096]⟩
abbrev S512x11008 : Shape := ⟨2, ![512, 11008]⟩
abbrev S256x4096 : Shape := ⟨2, ![256, 4096]⟩
abbrev S256x1 : Shape := ⟨2, ![256, 1]⟩
abbrev S256 : Shape := ⟨1, ![256]⟩
abbrev S512x256 : Shape := ⟨2, ![512, 256]⟩
abbrev S1x256 : Shape := ⟨2, ![1, 256]⟩
abbrev S4x128x11008 : Shape := ⟨3, ![4, 128, 11008]⟩

abbrev nBuf : Space → Nat
  | .hbm => 7
  | .vmem => 9
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S512x4096, .f32⟩
  | .hbm, ⟨5, _⟩ => ⟨S512x11008, .f32⟩
  | .hbm, ⟨6, _⟩ => ⟨S4x128x11008, .f32⟩
  | .local _ .vmem, ⟨0, _⟩ => ⟨S512x4096, .f32⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S256, .f32⟩
  | .local _ .vmem, ⟨6, _⟩ => ⟨S256, .f32⟩
  | .local _ .vmem, ⟨7, _⟩ => ⟨S512x256, .f32⟩
  | .local _ .vmem, ⟨8, _⟩ => ⟨S512x256, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x128x4096_S512x4096 : S4x128x4096.ShapeCasts S512x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S4x128x11008 : S512x11008.ShapeCasts S4x128x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S11008x4096 : Shape := ⟨2, ![11008, 4096]⟩
abbrev S11008x1 : Shape := ⟨2, ![11008, 1]⟩
abbrev S11008 : Shape := ⟨1, ![11008]⟩
abbrev S4x128x11008 : Shape := ⟨3, ![4, 128, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S4x128x11008, .f32⟩
  | .hbm, ⟨8, _⟩ => ⟨S1x1x11008, .f32⟩
  | .hbm, ⟨9, _⟩ => ⟨S4x128x11008, .f32⟩
  | .hbm, ⟨10, _⟩ => ⟨S4x128x11008, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x128x11008_0_1_2 : S1x1x11008.BroadcastsInDim S4x128x11008 (![0, 1, 2] : Fin 3 → Fin S4x128x11008.rank)
  dot_S4x128x4096_S11008x4096_S4x128x11008_2_1_01_0_n_n_wf : DotDims.WF S4x128x4096 S11008x4096 S4x128x11008 [2] [1] [0, 1] [0] [] []

variable [Facts₀]

def dot_S4x128x4096_S11008x4096_S4x128x11008_2_1_01_0_n_n : DotDims S4x128x4096 S11008x4096 S4x128x11008 where
  lhsContracting := [2]
  rhsContracting := [1]
  lhsNonContracting := [0, 1]
  rhsNonContracting := [0]
  lhsBatch := []
  rhsBatch := []
  wf := dot_S4x128x4096_S11008x4096_S4x128x11008_2_1_01_0_n_n_wf

class Facts : Prop extends Facts₀ where

variable [Facts]
-- ==== Proof.Spec.lean ====
/-
  The result as one function of the argument arrays.

  With a weight row  w[o, k] = int(q[o, k]) / s[o, 0]  (the integer read signed and exactly, the quotient the
  extended-real one), the layer is

      out[p, r, o] = (Σ_k x[p, r, k] · w[o, k]) + b[o]           p < 4, r < 128, o < 11008, k < 4096.

  The same numbers laid out with the two leading axes merged, a = 128·p + r < 512, are

      rows[a, o] = (Σ_k X[a, k] · w[o, k]) + b[o],               X[128·p + r, k] = x[p, r, k],

  and reading `rows` of the flattened `x` back at [p, r, o] gives `out` (`unflatten_rows`): both re-layings keep
  the row-major position, so entry [128·p + r, ·] of the flat form is entry [p, r, ·] of the batched one.
  No law of the extended reals is used: both forms are the same sum of the same products in the same order.
-/
import Idealize.ShloMosaic.PureOps.Ideal
import Idealize.ShloMosaic.Lib.ValueIdx
import Idealize.ShloMosaic.Lib.Pipeline.Value

noncomputable section

namespace Cert.DequantLinear

open Idealize.ShloMosaic Idealize.ShloMosaic.ValueIdx

/-- The shapes: the batched input and output, their flattened forms, the integer weights, their scales, the bias. -/
abbrev XB : Shape := ⟨3, ![4, 128, 4096]⟩
abbrev XF : Shape := ⟨2, ![512, 4096]⟩
abbrev QW : Shape := ⟨2, ![11008, 4096]⟩
abbrev SC : Shape := ⟨2, ![11008, 1]⟩
abbrev BI : Shape := ⟨1, ![11008]⟩
abbrev OF : Shape := ⟨2, ![512, 11008]⟩
abbrev OB : Shape := ⟨3, ![4, 128, 11008]⟩

/-- The dequantized weight w[o, k]: the integer, exactly, over its row's scale. -/
def weight (q : QW.Idx → BitVec 32) (s : SC.Idx → EReal) (o : Fin 11008) (k : Fin 4096) : EReal :=
  Ideal.div (FloatOps.sitofp (F := Ideal) .f32 (q (ix2 o k))) (s (ix2 o (0 : Fin 1)))

/-- One entry of the flat form: row `a` of the input against weight row `o`, plus the bias. -/
def flatEntry (X : XF.Idx → EReal) (q : QW.Idx → BitVec 32) (s : SC.Idx → EReal) (b : BI.Idx → EReal)
    (a : Fin 512) (o : Fin 11008) : EReal :=
  (∑ k : Fin 4096, X (ix2 a k) * weight q s o k) + b (ix1 o)

/-- The flat form as an array. -/
def rows (X : XF.Idx → EReal) (q : QW.Idx → BitVec 32) (s : SC.Idx → EReal) (b : BI.Idx → EReal) : OF.Idx → EReal :=
  fun j => flatEntry X q s b ⟨(j 0).val, (j 0).isLt⟩ ⟨(j 1).val, (j 1).isLt⟩

/-- One entry of the batched form. -/
def batchEntry (x : XB.Idx → EReal) (q : QW.Idx → BitVec 32) (s : SC.Idx → EReal) (b : BI.Idx → EReal)
    (p : Fin 4) (r : Fin 128) (o : Fin 11008) : EReal :=
  (∑ k : Fin 4096, x (ix3 p r k) * weight q s o k) + b (ix1 o)

/-- The batched form as an array: the layer's result. -/
def out (x : XB.Idx → EReal) (q : QW.Idx → BitVec 32) (s : SC.Idx → EReal) (b : BI.Idx → EReal) : OB.Idx → EReal :=
  fun i => batchEntry x q s b ⟨(i 0).val, (i 0).isLt⟩ ⟨(i 1).val, (i 1).isLt⟩ ⟨(i 2).val, (i 2).isLt⟩

theorem rows_apply (X : XF.Idx → EReal) (q : QW.Idx → BitVec 32) (s : SC.Idx → EReal) (b : BI.Idx → EReal)
    (a : Fin 512) (o : Fin 11008) : rows X q s b (ix2 a o) = flatEntry X q s b a o := rfl

theorem out_apply (x : XB.Idx → EReal) (q : QW.Idx → BitVec 32) (s : SC.Idx → EReal) (b : BI.Idx → EReal)
    (p : Fin 4) (r : Fin 128) (o : Fin 11008) : out x q s b (ix3 p r o) = batchEntry x q s b p r o := rfl

/-- The flattened input at [128·p + r, k] is the batched input at [p, r, k]: the two indices have one row-major position. -/
theorem flatten_apply (x : XB.Idx → EReal) (h : XB.ShapeCasts XF) (p : Fin 4) (r : Fin 128) (k : Fin 4096) (a : Fin 512)
    (ha : a.val = p.val * 128 + r.val) : shapeCast XF x h (ix2 a k) = x (ix3 p r k) :=
  shapeCast_apply x h (ix2 a k) (ix3 p r k) (by
    rw [Shape.rowMajor_val_three, Shape.rowMajor_val_two]
    show (p.val * 128 + r.val) * 4096 + k.val = a.val * 4096 + k.val
    rw [ha])

/-- Entry [128·p + r, o] of the flat form of the flattened input is entry [p, r, o] of the batched form. -/
theorem flatEntry_flatten (x : XB.Idx → EReal) (h : XB.ShapeCasts XF) (q : QW.Idx → BitVec 32) (s : SC.Idx → EReal)
    (b : BI.Idx → EReal) (p : Fin 4) (r : Fin 128) (o : Fin 11008) (a : Fin 512) (ha : a.val = p.val * 128 + r.val) :
    flatEntry (shapeCast XF x h) q s b a o = batchEntry x q s b p r o := by
  unfold flatEntry batchEntry
  refine congrArg (· + b (ix1 o)) (Finset.sum_congr rfl fun k _ => ?_)
  rw [flatten_apply x h p r k a ha]

/-- The flat form of the flattened input, read back with the leading axis split, is the batched form. -/
theorem unflatten_rows (x : XB.Idx → EReal) (h : XB.ShapeCasts XF) (h' : OF.ShapeCasts OB) (q : QW.Idx → BitVec 32)
    (s : SC.Idx → EReal) (b : BI.Idx → EReal) : shapeCast OB (rows (shapeCast XF x h) q s b) h' = out x q s b := by
  funext i
  obtain ⟨p, r, o, rfl⟩ : ∃ (p : Fin 4) (r : Fin 128) (o : Fin 11008), i = ix3 p r o := ⟨i 0, i 1, i 2, eq_ix3 i⟩
  have hp : p.val < 4 := p.isLt
  have hr : r.val < 128 := r.isLt
  have ha : p.val * 128 + r.val < 512 := by omega
  rw [shapeCast_apply _ h' (ix3 p r o) (ix2 (⟨p.val * 128 + r.val, ha⟩ : Fin 512) o) (by
    rw [Shape.rowMajor_val_three, Shape.rowMajor_val_two]
    show (p.val * 128 + r.val) * 11008 + o.val = (p.val * 128 + r.val) * 11008 + o.val
    rfl)]
  rw [rows_apply, out_apply]
  exact flatEntry_flatten x h q s b p r o _ rfl

end Cert.DequantLinear

end
-- ==== Proof.RefIsSpec.lean ====
/-
  The reference computes the specification.

  Its operations, read at an index [p, r, o] one at a time from the last: the sum of the contraction and the bias
  broadcast; the contraction as Σ_k of the input at [p, r, k] times the second operand at [o, k]; that operand the
  quotient of the converted integer at [o, k] by the scale broadcast along the row, i.e. the scale at [o, 0]; the bias
  broadcast to [1, 1, ·] and then to every [p, r, ·], i.e. the bias at [o]. That is `out` term for term.
-/
import proofs.«110683_j60026462929270_1_alg».proof.Proof.Gen.ReferenceIdeal.Read
import proofs.«110683_j60026462929270_1_alg».proof.Proof.Spec

noncomputable section

namespace Cert.ReferenceIdeal.RefValue

open Cert.ReferenceIdeal Cert.ReferenceIdeal.Read Idealize.ShloMosaic Idealize.ShloMosaic.ValueIdx Cert.DequantLinear

/-- The reference's last stage is the layer's result, index by index. -/
theorem stage_eq_out (x0 : (⟨S4x128x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v6 (F := Ideal) x0 x1 x2 x3 = out x0 x1 x2 x3 := by
  funext i
  obtain ⟨p, r, o, rfl⟩ : ∃ (p : Fin 4) (r : Fin 128) (o : Fin 11008), i = ix3 p r o := ⟨i 0, i 1, i 2, eq_ix3 i⟩
  rw [out_apply]
  unfold batchEntry
  rw [val_main_v6_apply, val_main_v3_apply, val_main_v5_apply, val_main_v4_apply]
  have eb : idx_main_v4 (idx_main_v5 (ix3 p r o)) = ix1 o :=
    funext fun a => Fin.ext (by match a with | ⟨0, _⟩ => rfl)
  rw [eb]
  refine congrArg (· + x3 (ix1 o)) (Finset.sum_congr rfl fun k _ => ?_)
  have el : lidx_main_v3 (ix3 p r o) k = ix3 p r k :=
    funext fun a => Fin.ext (by match a with | ⟨0, _⟩ => rfl | ⟨1, _⟩ => rfl | ⟨2, _⟩ => rfl)
  have er : ridx_main_v3 (ix3 p r o) k = ix2 o k :=
    funext fun a => Fin.ext (by match a with | ⟨0, _⟩ => rfl | ⟨1, _⟩ => rfl)
  have es : idx_main_v1 (ix2 o k) = ix2 o (0 : Fin 1) :=
    funext fun a => Fin.ext (by match a with | ⟨0, _⟩ => rfl | ⟨1, _⟩ => rfl)
  rw [el, er, val_main_v2_apply, val_main_v0_apply, val_main_v1_apply, es]
  rfl

end Cert.ReferenceIdeal.RefValue

end
-- ==== Proof.Payload.lean ====
/-
  What the kernel body stores, at an index.

  On its blocks — X : [512, 4096], Q : [256, 4096] integers, S : [256, 1], B : [256] — the body forms
  W = int(Q) / (S broadcast along the row), multiplies X by W contracting the second axis of both into a zero
  accumulator, and adds B broadcast over the rows. At [a, n] that is

      (Σ_k X[a, k] · (int(Q[n, k]) / S[n, 0])) + B[n] :

  the product onto zero is the plain sum over the contracted coordinate, the left factor read at [a, k], the right at
  [n, k]; the roundings to the narrower format are the identity on extended reals; the re-laying of X to its own shape
  is the identity; the row broadcast of S reads column 0; B viewed as [1, 256] and broadcast reads [0, n], which is B[n].
-/
import proofs.«110683_j60026462929270_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The contraction's record: both operands contract their second axis. -/
abbrev D : DotDims S512x4096 S256x4096 S512x256 := dot_S512x4096_S256x4096_S512x256_1_1_0_0_n_n

theorem lhs_row (j : S512x256.Idx) (c : D.contr.Idx) : (D.lhsIdx j c 0).val = (j 0).val := by
  unfold DotDims.lhsIdx
  rw [dif_neg (show ¬(0 : Fin S512x4096.rank) ∈ D.lhsBatch by decide), dif_pos (show (0 : Fin S512x4096.rank) ∈ D.lhsNonContracting by decide)]
  rfl
theorem lhs_contr (j : S512x256.Idx) (c : D.contr.Idx) : (D.lhsIdx j c 1).val = (c ⟨0, by decide⟩).val :=
  D.lhsIdx_val_of_single rfl j c
theorem rhs_row (j : S512x256.Idx) (c : D.contr.Idx) : (D.rhsIdx j c 0).val = (j 1).val := by
  unfold DotDims.rhsIdx
  rw [dif_neg (show ¬(0 : Fin S256x4096.rank) ∈ D.rhsBatch by decide), dif_pos (show (0 : Fin S256x4096.rank) ∈ D.rhsNonContracting by decide)]
  rfl
theorem rhs_contr (j : S512x256.Idx) (c : D.contr.Idx) : (D.rhsIdx j c 1).val = (c ⟨0, by decide⟩).val :=
  D.rhsIdx_val_of_single rfl j c

/-- The product onto the zero accumulator at [a, n]: the sum over k of the left operand at [a, k] times the right at [n, k]. -/
theorem product_apply (lhs : FVec Ideal S512x4096 .bf16) (rhs : FVec Ideal S256x4096 .bf16) (a : Fin 512) (n : Fin 256) :
    FloatOps.matmul D none lhs rhs (constant S512x256 .f32 0x00000000#32) (ix2 a n)
      = ∑ k : Fin 4096, lhs (ix2 a k) * rhs (ix2 n k) := by
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 a n) ((contrEquiv1 D 4096 rfl rfl).symm k) = ix2 a k := funext fun d => Fin.ext (by
    match d with
    | ⟨0, _⟩ => exact lhs_row _ _
    | ⟨1, _⟩ => exact (lhs_contr _ _).trans hk)
  have er : D.rhsIdx (ix2 a n) ((contrEquiv1 D 4096 rfl rfl).symm k) = ix2 n k := funext fun d => Fin.ext (by
    match d with
    | ⟨0, _⟩ => exact rhs_row _ _
    | ⟨1, _⟩ => exact (rhs_contr _ _).trans hk)
  rw [el, er]

/-- The scale column broadcast along the row, at [n, k], is the scale at [n, 0]. -/
theorem scale_row_apply (v2 : FVec Ideal S256x1 .f32) (n : Fin 256) (k : Fin 4096) :
    broadcastTo S256x4096 v2 broadcasts_S256x1_S256x4096 (ix2 n k) = v2 (ix2 n (0 : Fin 1)) :=
  broadcastTo_apply v2 broadcasts_S256x1_S256x4096 (ix2 n k) (ix2 n (0 : Fin 1)) (fun d => by
    match d with
    | ⟨0, _⟩ => show n.val = if (256 : Nat) = 1 then 0 else n.val; rw [if_neg (by decide)]
    | ⟨1, _⟩ => show 0 = if (1 : Nat) = 1 then 0 else k.val; rw [if_pos rfl])

/-- The bias viewed as one row and broadcast over the rows, at [a, n], is the bias at [n]. -/
theorem bias_rows_apply (v10 : FVec Ideal S256 .f32) (a : Fin 512) (n : Fin 256) :
    broadcastTo S512x256 (shapeCast S1x256 v10 shapeCasts_S256_S1x256) broadcasts_S1x256_S512x256 (ix2 a n) = v10 (ix1 n) := by
  rw [broadcastTo_apply _ broadcasts_S1x256_S512x256 (ix2 a n) (ix2 (0 : Fin 1) n) (fun d => by
    match d with
    | ⟨0, _⟩ => show 0 = if (1 : Nat) = 1 then 0 else a.val; rw [if_pos rfl]
    | ⟨1, _⟩ => show n.val = if (256 : Nat) = 1 then 0 else n.val; rw [if_neg (by decide)])]
  exact shapeCast_apply v10 shapeCasts_S256_S1x256 (ix2 (0 : Fin 1) n) (ix1 n) (by
    rw [Shape.rowMajor_val_one, Shape.rowMajor_val_two]
    show n.val = 0 * 256 + n.val
    omega)

/-- THE STORED VALUE at [a, n]. -/
theorem stored_apply (v0 : Vec Ideal S256x4096 .i32) (v2 : Vec Ideal S256x1 .f32) (v6 : Vec Ideal S512x4096 .f32) (v10 : Vec Ideal S256 .f32)
    (a : Fin 512) (n : Fin 256) :
    k0_pay1 (F := Ideal) v0 v2 v6 v10 (ix2 a n)
      = (∑ k : Fin 4096, v6 (ix2 a k) * Ideal.div (FloatOps.sitofp (F := Ideal) .f32 (v0 (ix2 n k))) (v2 (ix2 n (0 : Fin 1)))) + v10 (ix1 n) := by
  unfold k0_pay1
  refine (addf_apply _ _ (ix2 a n)).trans ?_
  refine congrArg₂ (· + ·) ((product_apply _ _ a n).trans (Finset.sum_congr rfl fun k _ => ?_)) (bias_rows_apply v10 a n)
  rw [shapeCast_self]
  refine congrArg (v6 (ix2 a k) * ·) ?_
  exact congrArg (Ideal.div (FloatOps.sitofp (F := Ideal) .f32 (v0 (ix2 n k)))) (scale_row_apply v2 n k)

end Cert.KernelIdeal.Body

end
-- ==== Proof.Region.lean ====
/-
  The array the region leaves: the flat form of the layer on the arrays as the region finds them.

  The grid has 43 points; at point t the input block is the whole flattened input X (block index [0, 0]), the weight,
  scale and bias blocks are rows 256·t … 256·t + 255 of their arrays, and the output block is columns
  256·t … 256·t + 255 of the [512, 11008] result. So element [a, n] of what point t writes back is the body's stored
  value on those blocks,  (Σ_k X[a, k] · (int(Q[256·t + n, k]) / S[256·t + n, 0])) + B[256·t + n],  which is entry
  [a, 256·t + n] of `rows X Q S B`: point t writes block t of ONE whole-array function. Column o of the result lies in
  the block of point o / 256, so the 43 blocks cover the array, and after the last write-back the array is `rows X Q S B`.
-/
import proofs.«110683_j60026462929270_1_alg».proof.Proof.Gen.KernelIdeal.Frame
import proofs.«110683_j60026462929270_1_alg».proof.Proof.Payload
import proofs.«110683_j60026462929270_1_alg».proof.Proof.Spec

noncomputable section

namespace Cert.KernelIdeal.Region

open Cert.KernelIdeal Cert.KernelIdeal.Gen Idealize.ShloMosaic Idealize.ShloMosaic.TcCoe Idealize.SL.Sem
open Idealize.ShloMosaic.ValueIdx Cert.DequantLinear Cert.KernelIdeal.Body
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The block indices at point t, decided over the grid: the input block never moves; the weight, scale and bias
    blocks are the t-th along their first axis; the output block is the t-th along the second. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = t.val :=
  (by decide +kernel : ∀ t : Fin grid0.N, _)

theorem point_lt (t : Fin cfg0.N) : t.val < 43 := lt_of_lt_of_eq t.isLt N_0

/-! ## The input blocks as the arrays read at the block's place -/

/-- The input block is the whole flattened input. -/
theorem input_block (c : Dev nD) (t : Fin cfg0.N) (a : Fin 512) (k : Fin 4096) :
    (iblk m c 0 t : Vec Ideal S512x4096 .f32) (ix2 a k) = (V m c main_v0 : S512x4096.Idx → EReal) (ix2 a k) := by
  obtain ⟨e00, e01, -⟩ := block_indices t
  show V m c main_v0 (((cfg0.win 0).blk t).view.emb (ix2 a k)) = V m c main_v0 (ix2 a k)
  refine congrArg (V m c main_v0) (funext fun d => Fin.ext ?_)
  match d with
  | ⟨0, _⟩ => show win0_0.index t (0 : Fin 2) * 512 + 1 * a.val = a.val; rw [e00]; omega
  | ⟨1, _⟩ => show win0_0.index t (1 : Fin 2) * 4096 + 1 * k.val = k.val; rw [e01]; omega

/-- The weight block's row n is row 256·t + n of the weights. -/
theorem weight_block (c : Dev nD) (t : Fin cfg0.N) (n : Fin 256) (k : Fin 4096) (o : Fin 11008) (ho : o.val = t.val * 256 + n.val) :
    (iblk m c 1 t : Vec Ideal S256x4096 .i32) (ix2 n k) = (V m c main_arg1 : S11008x4096.Idx → BitVec 32) (ix2 o k) := by
  obtain ⟨-, -, e10, e11, -⟩ := block_indices t
  show V m c main_arg1 (((cfg0.win 1).blk t).view.emb (ix2 n k)) = V m c main_arg1 (ix2 o k)
  refine congrArg (V m c main_arg1) (funext fun d => Fin.ext ?_)
  match d with
  | ⟨0, _⟩ => show win0_1.index t (0 : Fin 2) * 256 + 1 * n.val = o.val; rw [e10, ho]; omega
  | ⟨1, _⟩ => show win0_1.index t (1 : Fin 2) * 4096 + 1 * k.val = k.val; rw [e11]; omega

/-- The scale block's row n is row 256·t + n of the scales. -/
theorem scale_block (c : Dev nD) (t : Fin cfg0.N) (n : Fin 256) (o : Fin 11008) (ho : o.val = t.val * 256 + n.val) :
    (iblk m c 2 t : Vec Ideal S256x1 .f32) (ix2 n (0 : Fin 1)) = (V m c main_arg2 : S11008x1.Idx → EReal) (ix2 o (0 : Fin 1)) := by
  obtain ⟨-, -, -, -, e20, e21, -⟩ := block_indices t
  show V m c main_arg2 (((cfg0.win 2).blk t).view.emb (ix2 n (0 : Fin 1))) = V m c main_arg2 (ix2 o (0 : Fin 1))
  refine congrArg (V m c main_arg2) (funext fun d => Fin.ext ?_)
  match d with
  | ⟨0, _⟩ => show win0_2.index t (0 : Fin 2) * 256 + 1 * n.val = o.val; rw [e20, ho]; omega
  | ⟨1, _⟩ => show win0_2.index t (1 : Fin 2) * 1 + 1 * 0 = 0; rw [e21]

/-- The bias block's entry n is entry 256·t + n of the bias. -/
theorem bias_block (c : Dev nD) (t : Fin cfg0.N) (n : Fin 256) (o : Fin 11008) (ho : o.val = t.val * 256 + n.val) :
    (iblk m c 3 t : Vec Ideal S256 .f32) (ix1 n) = (V m c main_arg3 : S11008.Idx → EReal) (ix1 o) := by
  obtain ⟨-, -, -, -, -, -, e30, -⟩ := block_indices t
  show V m c main_arg3 (((cfg0.win 3).blk t).view.emb (ix1 n)) = V m c main_arg3 (ix1 o)
  refine congrArg (V m c main_arg3) (funext fun d => Fin.ext ?_)
  match d with
  | ⟨0, _⟩ => show win0_3.index t (0 : Fin 1) * 256 + 1 * n.val = o.val; rw [e30, ho]; omega

/-- The flat form read under the output block's element [a, n] is its entry [a, 256·t + n]. -/
theorem rows_under_block (X : XF.Idx → EReal) (Q : QW.Idx → BitVec 32) (S : SC.Idx → EReal) (B : BI.Idx → EReal)
    (t : Fin cfg0.N) (a : Fin 512) (n : Fin 256) (o : Fin 11008) (ho : o.val = t.val * 256 + n.val) :
    rows X Q S B (((cfg0.win 4).blk t).view.emb (ix2 a n)) = flatEntry X Q S B a o := by
  obtain ⟨-, -, -, -, -, -, -, e40, e41⟩ := block_indices t
  have h0 : ((((cfg0.win 4).blk t).view.emb (ix2 a n)) 0).val = a.val := by
    show win0_4.index t (0 : Fin 2) * 512 + 1 * a.val = a.val; rw [e40]; omega
  have h1 : ((((cfg0.win 4).blk t).view.emb (ix2 a n)) 1).val = o.val := by
    show win0_4.index t (1 : Fin 2) * 256 + 1 * n.val = o.val; rw [e41, ho]; omega
  unfold rows
  exact congrArg₂ (flatEntry X Q S B) (Fin.ext h0) (Fin.ext h1)

/-! ## What a point writes back, the cover, the array -/

/-- WHAT POINT t WRITES BACK is block t of the flat form of the arrays as the region finds them. -/
theorem flushed_eq (c : Dev nD) (t : Fin cfg0.N) :
    (dats m 0 c).flushed 4 t
      = ((cfg0.win 4).blk t).view.read (Elt Ideal) (rows (V m c main_v0) (V m c main_arg1) (V m c main_arg2) (V m c main_arg3)) := by
  show (cfg0.win 4).cut (grid0.coords t) ((dats m 0 c).after 4 t) = _
  rw [after0_4]
  unfold out0_4
  rw [View.canon_unit_zero zeros2]
  simp only [View.ld_unit_zero (S := S256x4096) zeros2, View.ld_unit_zero (S := S256x1) zeros2,
    View.ld_unit_zero (S := S512x4096) zeros2, View.ld_unit_zero (S := S256) zeros1]
  funext j
  obtain ⟨a, n, rfl⟩ : ∃ (a : Fin 512) (n : Fin 256), j = ix2 a n := ⟨j 0, j 1, eq_ix2 j⟩
  have hn : n.val < 256 := n.isLt
  have ht := point_lt t
  show k0_pay1 (F := Ideal) (iblk m c 1 t) (iblk m c 2 t) (iblk m c 0 t) (iblk m c 3 t) (ix2 a n)
    = rows (V m c main_v0) (V m c main_arg1) (V m c main_arg2) (V m c main_arg3) (((cfg0.win 4).blk t).view.emb (ix2 a n))
  rw [rows_under_block _ _ _ _ t a n ⟨t.val * 256 + n.val, by omega⟩ rfl]
  refine (stored_apply (iblk m c 1 t) (iblk m c 2 t) (iblk m c 0 t) (iblk m c 3 t) a n).trans ?_
  unfold flatEntry weight
  refine congrArg₂ (· + ·) (Finset.sum_congr rfl fun k _ => ?_) (bias_block m c t n ⟨t.val * 256 + n.val, by omega⟩ rfl)
  rw [input_block m c t a k, weight_block m c t n k ⟨t.val * 256 + n.val, by omega⟩ rfl,
    scale_block m c t n ⟨t.val * 256 + n.val, by omega⟩ rfl]

/-- An index of the result array is in point t's block iff each coordinate is in the block's range on its axis. -/
theorem mem_block (t : Fin cfg0.N) (i : S512x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v1).slice (win0_4.rect t)).set ↔ _
  rw [View.set_slice_whole, Rect.mem_set_unit]
  exact Iff.rfl

/-- Every index of the result array is in the block of the point its column falls in. -/
theorem covered (i : S512x11008.Idx) : ∃ t : Fin cfg0.N, (cfg0.win 4).flush t = true ∧ i ∈ ((cfg0.win 4).blk t).view.set := by
  have hi0 : (i 0).val < 512 := (i 0).isLt
  have hi1 : (i 1).val < 11008 := (i 1).isLt
  have hN : cfg0.N = 43 := N_0
  obtain ⟨t, htv⟩ : ∃ t : Fin cfg0.N, t.val = (i 1).val / 256 := ⟨⟨(i 1).val / 256, by rw [hN]; omega⟩, rfl⟩
  obtain ⟨-, -, -, -, -, -, -, e40, e41⟩ := block_indices t
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    rw [e40]; omega
  | ⟨1, _⟩ =>
    show win0_4.index t (1 : Fin 2) * 256 ≤ (i 1).val ∧ (i 1).val < win0_4.index t (1 : Fin 2) * 256 + 256
    rw [e41, htv]; omega

/-- THE ARRAY AFTER THE REGION: the flat form of the arrays as the region finds them. -/
theorem array_eq (c : Dev nD) :
    (dats m 0 c).arrAt 4 cfg0.N = rows (V m c main_v0) (V m c main_arg1) (V m c main_arg2) (V m c main_arg3) :=
  (dats m 0 c).arrAt_eq_of_cover 4 _ (fun t _ => flushed_eq m c t) covered

end Cert.KernelIdeal.Region

end
-- ==== Proof.HostSides.lean ====
/-
  The two host re-layings around the region.

  Before the region the batched input [4, 128, 4096] is re-laid as [512, 4096] into the buffer the region reads as its
  input; the other three arguments reach the region untouched. After the region its [512, 11008] array is re-laid as
  [4, 128, 11008] into the program's result. Both re-layings keep every element's row-major position.
-/
import proofs.«110683_j60026462929270_1_alg».proof.Proof.Gen.KernelIdeal.Frame
import Idealize.ShloMosaic.Lib.StableHlo.Run
import Idealize.ShloMosaic.PureOps.Ideal

noncomputable section

namespace Cert.KernelIdeal.Host

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ)

/-- The region finds, as its input array, the batched input flattened. -/
theorem input_flattened (c : Dev nD) :
    (V m c main_v0 : S512x4096.Idx → EReal)
      = shapeCast S512x4096 (m ((c : Thread nD τ).loc main_arg0) : S4x128x4096.Idx → EReal) shapeCasts_S4x128x4096_S512x4096 := by
  show StableHlo.after hostOps0 (fun b => m (c, b)) (Proc.devRef .tc main_v0) = _
  after_results
  rfl

/-- The program's result is the region's array with its leading axis split. -/
theorem result_unflattened (c : Dev nD) :
    (Pipeline.afterTail₀ cfgs (dats m) 0 (V0 m) [hostOps1] c main_v2 : S4x128x11008.Idx → EReal)
      = shapeCast S4x128x11008 ((dats m 0 c).arrAt 4 cfg0.N : S512x11008.Idx → EReal) shapeCasts_S512x11008_S4x128x11008 := by
  unfold Pipeline.afterTail₀
  show StableHlo.after hostOps1 _ (Proc.devRef .tc main_v2) = _
  after_results
  exact congrArg (fun A : S512x11008.Idx → EReal => shapeCast S4x128x11008 A shapeCasts_S512x11008_S4x128x11008)
    (Pipeline.withArrays_arr spec0 launch0.win.arr_inj c (V0 m c) (fun w => (dats m 0 c).arrAt w cfg0.N) 4)

end Cert.KernelIdeal.Host

end
-- ==== Proof.KernelRun.lean ====
/-
  The idealized kernel's run: every execution ends with the result at `out` of the arguments, the arguments unchanged.

  The run leaves the region's array at its last write-back and the program's result at the re-laying of that array.
  The array is the flat form `rows` of the flattened input and the three other arguments; re-laid with the leading axis
  split it is the batched form `out` of the arguments themselves.
-/
import proofs.«110683_j60026462929270_1_alg».proof.Proof.Region
import proofs.«110683_j60026462929270_1_alg».proof.Proof.HostSides
import proofs.«110683_j60026462929270_1_alg».proof.Proof.Spec

noncomputable section

namespace Cert.KernelIdeal.Whole

open Cert.KernelIdeal Cert.KernelIdeal.Gen Idealize.ShloMosaic Idealize.ShloMosaic.TcCoe Idealize.SL.Sem
open Cert.DequantLinear
open Idealize.ShloMosaic.Pipeline (Dat)

variable (m : (ℓ : Loc nD τ sig) → Buf (Elt Ideal) ℓ)

/-- The program's result buffer after the run is the layer's result of the argument arrays. -/
theorem result_eq (c : Dev nD) :
    (Pipeline.afterTail₀ cfgs (dats m) 0 (V0 m) [hostOps1] c main_v2 : S4x128x11008.Idx → EReal)
      = out (m ((c.tc : Thread nD τ).loc main_arg0)) (m ((c.tc : Thread nD τ).loc main_arg1))
          (m ((c.tc : Thread nD τ).loc main_arg2)) (m ((c.tc : Thread nD τ).loc main_arg3)) := by
  rw [Cert.KernelIdeal.Host.result_unflattened m c, Cert.KernelIdeal.Region.array_eq m c,
    Cert.KernelIdeal.Host.input_flattened m c, V_main_arg1 m c, V_main_arg2 m c, V_main_arg3 m c]
  exact unflatten_rows _ _ _ _ _ _

/-- THE RUN: every weakly fair execution terminates with the result at `out` of the arguments and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.lean ====
/-
  A linear layer with integer weights dequantized by a per-row scale, on a batch of 4 × 128 rows:

      out[p, r, o] = (Σ_k x[p, r, k] · (int(q[o, k]) / s[o, 0])) + b[o].

  The kernel flattens the batch to 512 rows, computes 256 output columns per grid point from the whole input and the
  matching 256 rows of weights, scales and bias — rounding both factors to a narrower format before the product, which
  is the identity on extended reals — and splits the leading axis again. The reference divides, contracts and adds on
  whole arrays. Index by index both are the same sum of the same products in the same order plus the same bias entry,
  so no law of the extended reals beyond reading each operation at an index is used, and the precondition is never opened.

  The three frames are the generated ones (the reference's is its run with the result dropped); nothing was rewritten
  on the way to the idealized kernel, so that conjunct is trivial; the last conjunct sets the kernel's run
  (Proof/KernelRun.lean) beside the reference's run read as the same function (Proof/RefIsSpec.lean).
-/
import proofs.«110683_j60026462929270_1_alg».proof.Defs
import proofs.«110683_j60026462929270_1_alg».proof.Proof.Gen.Kernel
import proofs.«110683_j60026462929270_1_alg».proof.Proof.Gen.Kernel.Frame
import proofs.«110683_j60026462929270_1_alg».proof.Proof.Gen.KernelIdeal
import proofs.«110683_j60026462929270_1_alg».proof.Proof.Gen.KernelIdeal.Frame
import proofs.«110683_j60026462929270_1_alg».proof.Proof.Gen.ReferenceIdeal
import proofs.«110683_j60026462929270_1_alg».proof.Proof.Gen.Pre_finite_inputs
import proofs.«110683_j60026462929270_1_alg».proof.Proof.Gen.ReferenceIdeal.Run
import proofs.«110683_j60026462929270_1_alg».proof.Proof.Gen.ReferenceIdeal.Read
import proofs.«110683_j60026462929270_1_alg».proof.Proof.RefIsSpec
import proofs.«110683_j60026462929270_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at `out` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.stage_eq_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
